-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S800000x50 .f32) (main_arg4 : FVec F S128x50 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S1x800000 : Shape := ⟨2, ![1, 800000]⟩
abbrev S800000x1 : Shape := ⟨2, ![800000, 1]⟩
abbrev S800000x128 : Shape := ⟨2, ![800000, 128]⟩
abbrev S6400x50 : Shape := ⟨2, ![6400, 50]⟩
abbrev S6400x1 : Shape := ⟨2, ![6400, 1]⟩
abbrev S6400x128 : Shape := ⟨2, ![6400, 128]⟩
abbrev S1x128 : Shape := ⟨2, ![1, 128]⟩
abbrev S5000x128 : Shape := ⟨2, ![5000, 128]⟩
abbrev S_ : Shape := ⟨0, ![]⟩

abbrev nBuf : Space → Nat
  | .hbm => 36
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000x1, .f32⟩
  | .hbm, ⟨18, _⟩ => ⟨S800000x128, .f32⟩
  | .hbm, ⟨19, _⟩ => ⟨S50000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .local _ .vmem, ⟨0, _⟩ => ⟨S6400x50, .f32⟩
  | .local _ .vmem, ⟨1, _⟩ => ⟨S6400x50, .f32⟩
  | .local _ .vmem, ⟨2, _⟩ => ⟨S6400x1, .f32⟩
  | .local _ .vmem, ⟨3, _⟩ => ⟨S6400x1, .f32⟩
  | .local _ .vmem, ⟨4, _⟩ => ⟨S128x50, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6400x128, .f32⟩
  | .local _ .vmem, ⟨9, _⟩ => ⟨S6400x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  inb_S6400x50_S6400x50_0_0 : ∀ a, (![0, 0] : Fin 2 → Nat) a + S6400x50.size a ≤ S6400x50.size a
  h_S6400x50 : 0 < S6400x50.numel
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  broadcasts_S6400x1_S6400x128 : S6400x1.Broadcasts S6400x128
  inb_S6400x128_S6400x128_0_0 : ∀ a, (![0, 0] : Fin 2 → Nat) a + S6400x128.size a ≤ S6400x128.size a
  h_S6400x128 : 0 < S6400x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S6400x50_S128x50_S6400x128_1_1_0_0_n_n_wf : DotDims.WF S6400x50 S128x50 S6400x128 [1] [1] [0] [0] [] []
  dot_S6400x128_S128x128_S6400x128_1_1_0_0_n_n_wf : DotDims.WF S6400x128 S128x128 S6400x128 [1] [1] [0] [0] [] []
  dot_S5000x128_S128x128_S5000x128_1_1_0_0_n_n_wf : DotDims.WF S5000x128 S128x128 S5000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x50.size a ≤ S800000x50.size a
  hwx0_0 : ∀ i : grid0.Coords, EltTy.bits .f32 = 32 ∨ (Rect.block (s := S800000x50) S6400x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S800000x1.size a
  hwx0_1 : ∀ i : grid0.Coords, EltTy.bits .f32 = 32 ∨ (Rect.block (s := S800000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x50.size a ≤ S128x50.size a
  hwx0_2 : ∀ i : grid0.Coords, EltTy.bits .f32 = 32 ∨ (Rect.block (s := S128x50) S128x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S800000x128.size a
  hwx0_6 : ∀ i : grid0.Coords, EltTy.bits .f32 = 32 ∨ (Rect.block (s := S800000x128) S6400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S6400x50_S128x50_S6400x128_1_1_0_0_n_n : DotDims S6400x50 S128x50 S6400x128 where
  lhsContracting := [1]
  rhsContracting := [1]
  lhsNonContracting := [0]
  rhsNonContracting := [0]
  lhsBatch := []
  rhsBatch := []
  wf := dot_S6400x50_S128x50_S6400x128_1_1_0_0_n_n_wf
def dot_S6400x128_S128x128_S6400x128_1_1_0_0_n_n : DotDims S6400x128 S128x128 S6400x128 where
  lhsContracting := [1]
  rhsContracting := [1]
  lhsNonContracting := [0]
  rhsNonContracting := [0]
  lhsBatch := []
  rhsBatch := []
  wf := dot_S6400x128_S128x128_S6400x128_1_1_0_0_n_n_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg3) S6400x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S1x800000 : Shape := ⟨2, ![1, 800000]⟩
abbrev S_ : Shape := ⟨0, ![]⟩
abbrev S50x128 : Shape := ⟨2, ![50, 128]⟩
abbrev S800000x128 : Shape := ⟨2, ![800000, 128]⟩
abbrev S1x128 : Shape := ⟨2, ![1, 128]⟩
abbrev S800000x1 : Shape := ⟨2, ![800000, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S800000, .f32⟩
  | .hbm, ⟨20, _⟩ => ⟨S800000, .f32⟩
  | .hbm, ⟨21, _⟩ => ⟨S_, .f32⟩
  | .hbm, ⟨22, _⟩ => ⟨S800000, .f32⟩
  | .hbm, ⟨23, _⟩ => ⟨S800000, .f32⟩
  | .hbm, ⟨24, _⟩ => ⟨S_, .f32⟩
  | .hbm, ⟨25, _⟩ => ⟨S800000, .f32⟩
  | .hbm, ⟨26, _⟩ => ⟨S800000, .f32⟩
  | .hbm, ⟨27, _⟩ => ⟨S50x128, .f32⟩
  | .hbm, ⟨28, _⟩ => ⟨S800000x128, .f32⟩
  | .hbm, ⟨29, _⟩ => ⟨S1x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .i1⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S128x128, .f32⟩
  | .hbm, ⟨50, _⟩ => ⟨S800000x128, .f32⟩
  | .hbm, ⟨51, _⟩ => ⟨S1x128, .f32⟩
  | .hbm, ⟨52, _⟩ => ⟨S800000x128, .f32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S128x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .i1⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c : Ref sig .tc := ⟨.hbm, 59, rfl⟩
abbrev main_v29 : Ref sig .tc := ⟨.hbm, 60, rfl⟩
abbrev main_v30 : Ref sig .tc := ⟨.hbm, 61, rfl⟩
abbrev main_c_3 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  transposes_S128x50_S50x128_1_0 : S128x50.Transposes [1, 0] S50x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel program's run with its result named. The program is three kernel launches among two stretches
  of host operations; its buffers' contents at each boundary are a fold from the launch memory, and after the last
  launch every buffer that outlives the run holds the last boundary's contents. So every weakly fair execution
  terminates with the result array at the last boundary's contents of its buffer, and with every argument array as
  launched.
-/
import proofs.«104091_j14370960572978_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the contents the
    last boundary gives its buffer, and each argument array ends as launched. -/
theorem run : θ_run defs (onTc (τ := τ) (main (F := F))) ⟨m, fun _ => 0, ρ⟩ (fun r => ∀ c : Dev nD,
      r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v19 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Result

end
-- ==== Proof.LibDotRows.lean ====
/-
  A matrix product against the rows of the right operand, read at a row and a column. For dimension numbers that
  contract the second axis of BOTH operands and batch nothing (an M x K array times the transpose of an N x K
  array) — stated by the four coordinate facts of the operand indices — the contraction at (r, c) is the finite sum
  over k of left (r, k) * right (c, k). A matrix-unit product into the zero accumulator is that sum at the extended
  reals, whatever formats the operands were rounded to on the way.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.ValueIdx

open Idealize.ShloMosaic

/-- The facts that say a dot's dimension numbers are those of an M x K array times the transpose of an N x K one. -/
structure RowsDot {M K N : ℕ} (d : DotDims (⟨2, ![M, K]⟩ : Shape) (⟨2, ![N, K]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

/-- The contraction against the right operand's rows at (r, c), re-indexed by the inner position k. -/
theorem contraction_rows_ix2 {M K N : ℕ} {d : DotDims (⟨2, ![M, K]⟩ : Shape) (⟨2, ![N, K]⟩ : Shape) (⟨2, ![M, N]⟩ : Shape)}
    (hd : RowsDot d) (lhs : (⟨2, ![M, K]⟩ : Shape).Idx → EReal) (rhs : (⟨2, ![N, K]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 c k) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 c k := funext fun a => Fin.ext (by
    match a with
    | ⟨0, _⟩ => exact hd.r0 _ _
    | ⟨1, _⟩ => exact (hd.r1 _ _).trans hk)
  rw [el, er]

/-- A matrix-unit product of an M x K array with the rows of an N x K array into zeros, at (r, c): the sum over the
    K inner positions. -/
theorem matmul_zero_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 c k) : EReal) := by
  rw [Ideal.matmul_constant_zero_apply]
  exact contraction_rows_ix2 hd lhs rhs r c

/-- A dense layer against the rows of the weights: the product into zeros plus a bias vector recast as one row and
    broadcast down the rows, at (p, q), is the sum over the inner position plus the bias at q. -/
theorem dense_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (x : FVec Ideal (⟨2, ![M, K]⟩ : Shape) φ₁) (w : FVec Ideal (⟨2, ![N, K]⟩ : Shape) φ₂) (b : FVec Ideal (⟨1, ![N]⟩ : Shape) .f32)
    (h1 : (⟨1, ![N]⟩ : Shape).ShapeCasts ⟨2, ![1, N]⟩) (h2 : (⟨2, ![1, N]⟩ : Shape).Broadcasts ⟨2, ![M, N]⟩) (p : Fin M) (q : Fin N) :
    addf (matmul d prec x w (constant (⟨2, ![M, N]⟩ : Shape) .f32 0x00000000#32))
        (broadcastTo (⟨2, ![M, N]⟩ : Shape) (shapeCast (⟨2, ![1, N]⟩ : Shape) b h1) h2) (ix2 p q)
      = (∑ k : Fin K, (x (ix2 p k) : EReal) * (w (ix2 q k) : EReal)) + (b (ix1 q) : EReal) := by
  show FloatOps.matmul d prec x w (constant (⟨2, ![M, N]⟩ : Shape) .f32 0x00000000#32) (ix2 p q)
      + broadcastTo (⟨2, ![M, N]⟩ : Shape) (shapeCast (⟨2, ![1, N]⟩ : Shape) b h1) h2 (ix2 p q) = _
  rw [broadcastTo_1b_ab_apply, shapeCast_a_1a_apply, matmul_zero_rows_ix2 hd]

end Idealize.ShloMosaic.ValueIdx

end
-- ==== Proof.NodeProjection.lean ====
/-
  The node projection, the second of the program's three kernel launches. Its grid has ten points; point t reads rows
  5000 t … 5000 t + 4999 of the node features and the whole weight matrix, and writes back those rows of the product
  of the features with the transpose of the weights. Entry (n, f) of that product depends on row n of the features and
  row f of the weights only, so each block written back is a block of ONE whole-array function, and the ten blocks
  tile the result array: after the launch the result array is that function of the arrays the launch found.
-/
import proofs.«104091_j14370960572978_2_alg».proof.Proof.Gen.KernelIdeal.Frame
import proofs.«104091_j14370960572978_2_alg».proof.Proof.LibDotRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProj

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- Node features times the transpose of the weights: entry (n, f) is the sum over k of x (n, k) · w (f, k). -/
def proj (x : S50000x128.Idx → Elt Ideal .f32) (w : S128x128.Idx → Elt Ideal .f32) : S50000x128.Idx → Elt Ideal .bf16 :=
  fun i => ((∑ k : Fin 128, (x (ix2 (i 0) k) : EReal) * (w (ix2 (i 1) k) : EReal) : EReal))

/-- The kernel's product contracts the second axis of both operands. -/
theorem rowsDot : RowsDot dot_S5000x128_S128x128_S5000x128_1_1_0_0_n_n where
  rank := rfl
  size := rfl
  l0 := fun j q => by
    unfold DotDims.lhsIdx
    rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
    rfl
  l1 := fun j q => dot_S5000x128_S128x128_S5000x128_1_1_0_0_n_n.lhsIdx_val_of_single rfl j q
  r0 := fun j q => by
    unfold DotDims.rhsIdx
    rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
    rfl
  r1 := fun j q => dot_S5000x128_S128x128_S5000x128_1_1_0_0_n_n.rhsIdx_val_of_single rfl j q

/-- What the body stores, at an entry of the block: the changes of float format are the identity on the extended
    reals, and the product into zeros is the sum over the inner position. -/
theorem payload_at (x0 : Vec Ideal S5000x128 .f32) (x1 : Vec Ideal S128x128 .f32) (j : S5000x128.Idx) :
    k1_pay1 (F := Ideal) x0 x1 j = ((∑ k : Fin 128, (x0 (ix2 (j 0) k) : EReal) * (x1 (ix2 (j 1) k) : EReal) : EReal)) := by
  obtain ⟨p, q, rfl⟩ : ∃ (p : Fin 5000) (q : Fin 128), j = ix2 p q := ⟨j 0, j 1, eq_ix2 j⟩
  unfold k1_pay1
  exact matmul_zero_rows_ix2 rowsDot none _ _ p q

/-- The stored entry is the projection's entry, whenever row (j 0) of the feature block is row (i 0) of the feature array
    and row (j 1) of the weight block is row (i 1) of the weight array. -/
theorem payload_proj (X : S50000x128.Idx → EReal) (Wt : S128x128.Idx → EReal) (x0 : S5000x128.Idx → EReal) (x1 : S128x128.Idx → EReal)
    (j : S5000x128.Idx) (i : S50000x128.Idx)
    (h0 : ∀ k : Fin 128, x0 (ix2 (j 0) k) = X (ix2 (i 0) k)) (h1 : ∀ k : Fin 128, x1 (ix2 (j 1) k) = Wt (ix2 (i 1) k)) :
    k1_pay1 (F := Ideal) x0 x1 j = proj X Wt i := by
  rw [payload_at]
  unfold proj
  exact Finset.sum_congr rfl fun k _ => by rw [h0 k, h1 k]

/-- The block indices over the grid: the feature block and the result block move together down the rows, the weight
    block stays, and no block moves along the columns. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every one of the ten row blocks is some point's. -/
theorem idx_onto : ∀ (q0 : Fin 10), ∃ t : Fin cfg1.N, win1_2.index t = ![q0.val, 0] :=
  (by decide +kernel : ∀ (q0 : Fin 10), ∃ t : Fin grid1.N, win1_2.index t = ![q0.val, 0])

variable (V : (c : Dev nD) → (b : Ref sig .tc) → Buf (Elt Ideal) ((c : Thread nD τ).loc b))

/-- What point t writes back is block t of the projection of the arrays the launch found. -/
theorem flushed_eq (c : Dev nD) (t : Fin cfg1.N) :
    (dat1 V c).flushed 2 t = ((cfg1.win 2).blk t).view.read (Elt Ideal) (proj (V c main_arg0) (V c main_arg8)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4⟩ := idx_facts t
  refine funext fun (j : S5000x128.Idx) => ?_
  refine payload_proj (V c main_arg0) (V c main_arg8) (iblk1 V c 0 t) (iblk1 V c 1 t) j (((cfg1.win 2).blk t).view.emb j) (fun k => ?_) (fun k => ?_)
  · show V c main_arg0 (((cfg1.win 0).blk t).view.emb (ix2 (j 0) k)) = V c main_arg0 (ix2 ((((cfg1.win 2).blk t).view.emb j) 0) k)
    refine congrArg (V c main_arg0) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg8 (((cfg1.win 1).blk t).view.emb (ix2 (j 1) k)) = V c main_arg8 (ix2 ((((cfg1.win 2).blk t).view.emb j) 1) k)
    refine congrArg (V c main_arg8) ?_
    funext a; apply Fin.ext
    match a with
    | ⟨0, _⟩ => show win1_1.index t (0 : Fin 2) * 128 + 1 * (j 1).val = win1_2.index t (1 : Fin 2) * 128 + 1 * (j 1).val; omega
    | ⟨1, _⟩ => show win1_1.index t (1 : Fin 2) * 128 + 1 * k.val = k.val; omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v6).slice (win1_2.rect t)).set ↔ _
  rw [View.set_slice_whole, Rect.mem_set_unit]
  exact Iff.rfl

/-- The ten blocks tile the result array: row n is in the block of point n / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the result array is the projection of the feature and weight arrays the launch found. -/
theorem array_eq (c : Dev nD) : (dat1 V c).arrAt 2 cfg1.N = proj (V c main_arg0) (V c main_arg8) :=
  (dat1 V c).arrAt_eq_of_cover 2 _ (fun t _ => flushed_eq V c t) cover

end Cert.KernelIdeal.NodeProj

end
-- ==== Proof.Entrywise.lean ====
/-
  The two entrywise functions of the interaction block, each at one entry and in both spellings the two programs use.
  The shifted softplus is max(v, 0) + log(1 + exp(-|v - 0|)) - log 2, behind a guard that tests whether v - 0 differs
  from itself (never, on the extended reals). The kernel writes the exponent as 0 - |v - 0| and its transcendentals as
  the vector unit's; the host negates |v - 0| and uses its own exp and log1p: one function on the extended reals. The
  cosine cutoff is 0.5 · (cos(w · π/10) + 1) with the same three float words on both sides; the host's cosine is the
  kernel's.
-/
import Idealize.ShloMosaic.PureOps.Ideal.Laws
import Idealize.ShloMosaic.Lib.ValueIdx

noncomputable section

namespace Cert.Entrywise

open Idealize.ShloMosaic

/-- The shifted softplus as the kernels' bodies compute it at one entry. -/
def ssp (v : Ideal .f32) : Ideal .f32 :=
  FloatOps.subf
    (Scalar.select
      (FloatOps.cmpf .one (FloatOps.subf v (FloatOps.ofBits .f32 0x00000000#32)) (FloatOps.subf v (FloatOps.ofBits .f32 0x00000000#32)))
      (FloatOps.addf v (FloatOps.ofBits .f32 0x00000000#32))
      (FloatOps.addf (FloatOps.maximumf v (FloatOps.ofBits .f32 0x00000000#32))
        (FloatOps.log1p (FloatOps.exp (FloatOps.subf (FloatOps.ofBits .f32 0x00000000#32)
          (FloatOps.absf (FloatOps.subf v (FloatOps.ofBits .f32 0x00000000#32))))))))
    (FloatOps.ofBits .f32 0x3F317218#32)

/-- The shifted softplus as the host computes it at one entry. -/
def sspHost (v : Ideal .f32) : Ideal .f32 :=
  FloatOps.subf
    (Scalar.select
      (FloatOps.cmpf .une (FloatOps.subf v (FloatOps.ofBits .f32 0x00000000#32)) (FloatOps.subf v (FloatOps.ofBits .f32 0x00000000#32)))
      (FloatOps.addf v (FloatOps.ofBits .f32 0x00000000#32))
      (FloatOps.addf (FloatOps.maximumf v (FloatOps.ofBits .f32 0x00000000#32))
        (FloatOps.hostUnary .log1p (FloatOps.hostUnary .exp (FloatOps.hostNegf
          (FloatOps.hostAbsf (FloatOps.subf v (FloatOps.ofBits .f32 0x00000000#32))))))))
    (FloatOps.ofBits .f32 0x3F317218#32)

/-- Zero minus y is the negation of y on the extended reals, infinities included. -/
theorem zero_word_sub (y : EReal) : Ideal.ofBits .f32 0x00000000#32 - y = -y := by
  rw [Ideal.ofBits_zero_f32, sub_eq_add_neg, zero_add]

/-- The host's shifted softplus is the kernels': the two guards are one comparison, the host's exp and log1p are the
    kernels', and negating |d| is subtracting it from zero. -/
theorem sspHost_eq (v : Ideal .f32) : sspHost v = ssp v := by
  unfold sspHost ssp
  have e : FloatOps.hostNegf (FloatOps.hostAbsf (FloatOps.subf v (FloatOps.ofBits .f32 0x00000000#32)))
      = FloatOps.subf (FloatOps.ofBits (F := Ideal) .f32 0x00000000#32) (FloatOps.absf (FloatOps.subf v (FloatOps.ofBits .f32 0x00000000#32))) :=
    (zero_word_sub _).symm
  rw [e]
  rfl

/-- The cosine cutoff as the kernel's body computes it at one entry. -/
def cutoff (w : Ideal .f32) : Ideal .f32 :=
  FloatOps.mulf (FloatOps.ofBits .f32 0x3F000000#32)
    (FloatOps.addf (FloatOps.cos (FloatOps.mulf w (FloatOps.ofBits .f32 0x3EA0D97C#32))) (FloatOps.ofBits .f32 0x3F800000#32))

/-- The cosine cutoff as the host computes it at one entry. -/
def cutoffHost (w : Ideal .f32) : Ideal .f32 :=
  FloatOps.mulf (FloatOps.ofBits .f32 0x3F000000#32)
    (FloatOps.addf (FloatOps.hostUnary .cos (FloatOps.mulf w (FloatOps.ofBits .f32 0x3EA0D97C#32))) (FloatOps.ofBits .f32 0x3F800000#32))

/-- The host's cosine is the kernel's. -/
theorem cutoffHost_eq (w : Ideal .f32) : cutoffHost w = cutoff w := rfl

/-! ## The same two functions applied to a whole array, as the kernels' bodies spell them -/

/-- The shifted softplus of every entry of an array, in the kernels' spelling: the zero and log 2 words splat. -/
def sspVec {s : Shape} (v : FVec Ideal s .f32) : FVec Ideal s .f32 :=
  subf
    (select
      (cmpf .one (subf v (broadcast s (Scalar.ofBits (F := Ideal) .f32 0x00000000#32))) (subf v (broadcast s (Scalar.ofBits (F := Ideal) .f32 0x00000000#32))))
      (addf v (broadcast s (Scalar.ofBits (F := Ideal) .f32 0x00000000#32)))
      (addf (maximumf v (broadcast s (Scalar.ofBits (F := Ideal) .f32 0x00000000#32)))
        (log1p (exp (subf (broadcast s (Scalar.ofBits (F := Ideal) .f32 0x00000000#32))
          (absf (subf v (broadcast s (Scalar.ofBits (F := Ideal) .f32 0x00000000#32)))))))))
    (broadcast s (Scalar.ofBits (F := Ideal) .f32 0x3F317218#32))

/-- Entry by entry it is the one-entry function. -/
theorem sspVec_apply {s : Shape} (v : FVec Ideal s .f32) (i : s.Idx) : sspVec v i = ssp (v i) := rfl

/-- The cosine cutoff of every entry of an array, in the kernel's spelling. -/
def cutoffVec {s : Shape} (w : FVec Ideal s .f32) : FVec Ideal s .f32 :=
  mulf (broadcast s (Scalar.ofBits (F := Ideal) .f32 0x3F000000#32))
    (addf (cos (mulf w (broadcast s (Scalar.ofBits (F := Ideal) .f32 0x3EA0D97C#32)))) (broadcast s (Scalar.ofBits (F := Ideal) .f32 0x3F800000#32)))

/-- Entry by entry it is the one-entry function. -/
theorem cutoffVec_apply {s : Shape} (w : FVec Ideal s .f32) (i : s.Idx) : cutoffVec w i = cutoff (w i) := rfl

end Cert.Entrywise

end
-- ==== Proof.NodeMlp.lean ====
/-
  The node update, the last of the program's three kernel launches. Its grid has ten points; point t reads rows
  5000 t … 5000 t + 4999 of the aggregated messages and the whole of two weight matrices and two bias vectors, and
  writes back those rows of: a dense layer (product with the transpose of the first weights, plus the first bias), the
  shifted softplus of every entry, and a second dense layer. Row n of the result depends on row n of the aggregated
  messages only, so each block written back is a block of ONE whole-array function, and the ten blocks tile the
  result array: after the launch the result array is that function of the arrays the launch found.
-/
import proofs.«104091_j14370960572978_2_alg».proof.Proof.Gen.KernelIdeal.Frame
import proofs.«104091_j14370960572978_2_alg».proof.Proof.LibDotRows
import proofs.«104091_j14370960572978_2_alg».proof.Proof.Entrywise
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeMlp

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
open Cert.Entrywise

theorem hz : (![0, 0] : Fin 2 → Nat) = fun _ => 0 := funext fun a => by fin_cases a <;> rfl
theorem hz1 : (![0] : Fin 1 → Nat) = fun _ => 0 := funext fun a => by fin_cases a; rfl

/-- Dense layer, shifted softplus, dense layer: entry (n, o) from row n of the aggregated messages. -/
def mlp (A : S50000x128.Idx → EReal) (W2 : S128x128.Idx → EReal) (B2 : S128.Idx → EReal) (W : S128x128.Idx → EReal) (B : S128.Idx → EReal) :
    S50000x128.Idx → EReal :=
  fun i => (∑ k : Fin 128, ssp ((∑ l : Fin 128, A (ix2 (i 0) l) * W2 (ix2 k l)) + B2 (ix1 k)) * W (ix2 (i 1) k)) + B (ix1 (i 1))

/-- Both of the kernel's products contract the second axis of both operands. -/
theorem rowsDot : RowsDot dot_S5000x128_S128x128_S5000x128_1_1_0_0_n_n where
  rank := rfl
  size := rfl
  l0 := fun j q => by
    unfold DotDims.lhsIdx
    rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
    rfl
  l1 := fun j q => dot_S5000x128_S128x128_S5000x128_1_1_0_0_n_n.lhsIdx_val_of_single rfl j q
  r0 := fun j q => by
    unfold DotDims.rhsIdx
    rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
    rfl
  r1 := fun j q => dot_S5000x128_S128x128_S5000x128_1_1_0_0_n_n.rhsIdx_val_of_single rfl j q

/-- The body's stored value as dense layer, softplus, dense layer (the body's text, regrouped). -/
theorem payload_form (x0 : Vec Ideal S5000x128 .f32) (x1 : Vec Ideal S128x128 .f32) (x2 : Vec Ideal S128 .f32) (x3 : Vec Ideal S128x128 .f32) (x4 : Vec Ideal S128 .f32) :
    k2_pay1 (F := Ideal) x0 x1 x2 x3 x4
      = addf (matmul dot_S5000x128_S128x128_S5000x128_1_1_0_0_n_n none
            (truncf .bf16 (sspVec (addf (matmul dot_S5000x128_S128x128_S5000x128_1_1_0_0_n_n none
                (truncf .bf16 (shapeCast S5000x128 x0 shapeCasts_S5000x128_S5000x128) bitsLt_bf16_f32) (truncf .bf16 x1 bitsLt_bf16_f32) (constant S5000x128 .f32 0x00000000#32))
              (broadcastTo S5000x128 (shapeCast S1x128 x2 shapeCasts_S128_S1x128) broadcasts_S1x128_S5000x128))) bitsLt_bf16_f32)
            (truncf .bf16 x3 bitsLt_bf16_f32) (constant S5000x128 .f32 0x00000000#32))
          (broadcastTo S5000x128 (shapeCast S1x128 x4 shapeCasts_S128_S1x128) broadcasts_S1x128_S5000x128) := rfl

/-- What the body stores, at an entry of the block. -/
theorem payload_at (x0 : Vec Ideal S5000x128 .f32) (x1 : Vec Ideal S128x128 .f32) (x2 : Vec Ideal S128 .f32) (x3 : Vec Ideal S128x128 .f32) (x4 : Vec Ideal S128 .f32)
    (j : S5000x128.Idx) :
    k2_pay1 (F := Ideal) x0 x1 x2 x3 x4 j
      = ((∑ k : Fin 128, ssp ((∑ l : Fin 128, (x0 (ix2 (j 0) l) : EReal) * (x1 (ix2 k l) : EReal)) + (x2 (ix1 k) : EReal)) * (x3 (ix2 (j 1) k) : EReal))
          + (x4 (ix1 (j 1)) : EReal) : EReal) := by
  obtain ⟨p, q, rfl⟩ : ∃ (p : Fin 5000) (q : Fin 128), j = ix2 p q := ⟨j 0, j 1, eq_ix2 j⟩
  rw [payload_form]
  refine (dense_rows_ix2 rowsDot none _ _ x4 _ _ p q).trans ?_
  refine congrArg (· + (x4 (ix1 q) : EReal)) (Finset.sum_congr rfl fun k _ => ?_)
  refine congrArg (· * (x3 (ix2 q k) : EReal)) ?_
  refine (sspVec_apply _ (ix2 p k)).trans (congrArg ssp ?_)
  refine (dense_rows_ix2 rowsDot none _ _ x2 _ _ p k).trans ?_
  rw [shapeCast_self]
  rfl

/-- The stored entry is the update's entry, whenever row (j 0) of the message block is row (i 0) of the message array,
    the column is the same, and the weight and bias blocks are the weight and bias arrays. -/
theorem payload_mlp (A : S50000x128.Idx → EReal) (W2 : S128x128.Idx → EReal) (B2 : S128.Idx → EReal) (W : S128x128.Idx → EReal) (B : S128.Idx → EReal)
    (x0 : S5000x128.Idx → EReal) (x1 : S128x128.Idx → EReal) (x2 : S128.Idx → EReal) (x3 : S128x128.Idx → EReal) (x4 : S128.Idx → EReal)
    (j : S5000x128.Idx) (i : S50000x128.Idx)
    (h0 : ∀ l : Fin 128, x0 (ix2 (j 0) l) = A (ix2 (i 0) l)) (h1 : ∀ k l : Fin 128, x1 (ix2 k l) = W2 (ix2 k l))
    (h2 : ∀ k : Fin 128, x2 (ix1 k) = B2 (ix1 k)) (h3 : ∀ k : Fin 128, x3 (ix2 (j 1) k) = W (ix2 (i 1) k))
    (h4 : x4 (ix1 (j 1)) = B (ix1 (i 1))) :
    k2_pay1 (F := Ideal) x0 x1 x2 x3 x4 j = mlp A W2 B2 W B i := by
  rw [payload_at]
  unfold mlp
  rw [h4]
  refine congrArg (· + B (ix1 (i 1))) (Finset.sum_congr rfl fun k _ => ?_)
  rw [h3 k, h2 k]
  refine congrArg (fun s => ssp (s + B2 (ix1 k)) * W (ix2 (i 1) k)) (Finset.sum_congr rfl fun l _ => ?_)
  rw [h0 l, h1 k l]

/-- The block indices over the grid: the message block and the result block move together down the rows; the weight
    and bias blocks stay; no block moves along the columns. -/
theorem idx_facts : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 :=
  (by decide +kernel : ∀ t : Fin grid2.N, _)

/-- Every one of the ten row blocks is some point's. -/
theorem idx_onto : ∀ (q0 : Fin 10), ∃ t : Fin cfg2.N, win2_5.index t = ![q0.val, 0] :=
  (by decide +kernel : ∀ (q0 : Fin 10), ∃ t : Fin grid2.N, win2_5.index t = ![q0.val, 0])

variable (V : (c : Dev nD) → (b : Ref sig .tc) → Buf (Elt Ideal) ((c : Thread nD τ).loc b))

/-- What point t writes back is block t of the update of the arrays the launch found. -/
theorem flushed_eq (c : Dev nD) (t : Fin cfg2.N) :
    (dat2 V c).flushed 5 t = ((cfg2.win 5).blk t).view.read (Elt Ideal)
      (mlp (V c main_v18) (V c main_arg9) (V c main_arg10) (V c main_arg11) (V c main_arg12)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S128) hz1]
  obtain ⟨e0, e1, e2, e3, e4, e5, e6, e7, e8⟩ := idx_facts t
  refine funext fun (j : S5000x128.Idx) => ?_
  refine payload_mlp (V c main_v18) (V c main_arg9) (V c main_arg10) (V c main_arg11) (V c main_arg12)
    (iblk2 V c 0 t) (iblk2 V c 1 t) (iblk2 V c 2 t) (iblk2 V c 3 t) (iblk2 V c 4 t) j (((cfg2.win 5).blk t).view.emb j)
    (fun l => ?_) (fun k l => ?_) (fun k => ?_) (fun k => ?_) ?_
  · show V c main_v18 (((cfg2.win 0).blk t).view.emb (ix2 (j 0) l)) = V c main_v18 (ix2 ((((cfg2.win 5).blk t).view.emb j) 0) l)
    refine congrArg (V c main_v18) ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * l.val = l.val; omega
  · show V c main_arg9 (((cfg2.win 1).blk t).view.emb (ix2 k l)) = V c main_arg9 (ix2 k l)
    refine congrArg (V c main_arg9) ?_
    funext a; apply Fin.ext
    match a with
    | ⟨0, _⟩ => show win2_1.index t (0 : Fin 2) * 128 + 1 * k.val = k.val; omega
    | ⟨1, _⟩ => show win2_1.index t (1 : Fin 2) * 128 + 1 * l.val = l.val; omega
  · show V c main_arg10 (((cfg2.win 2).blk t).view.emb (ix1 k)) = V c main_arg10 (ix1 k)
    refine congrArg (V c main_arg10) ?_
    funext a; apply Fin.ext
    match a with
    | ⟨0, _⟩ => show win2_2.index t (0 : Fin 1) * 128 + 1 * k.val = k.val; omega
  · show V c main_arg11 (((cfg2.win 3).blk t).view.emb (ix2 (j 1) k)) = V c main_arg11 (ix2 ((((cfg2.win 5).blk t).view.emb j) 1) k)
    refine congrArg (V c main_arg11) ?_
    funext a; apply Fin.ext
    match a with
    | ⟨0, _⟩ => show win2_3.index t (0 : Fin 2) * 128 + 1 * (j 1).val = win2_5.index t (1 : Fin 2) * 128 + 1 * (j 1).val; omega
    | ⟨1, _⟩ => show win2_3.index t (1 : Fin 2) * 128 + 1 * k.val = k.val; omega
  · show V c main_arg12 (((cfg2.win 4).blk t).view.emb (ix1 (j 1))) = V c main_arg12 (ix1 ((((cfg2.win 5).blk t).view.emb j) 1))
    refine congrArg (V c main_arg12) ?_
    funext a; apply Fin.ext
    match a with
    | ⟨0, _⟩ => show win2_4.index t (0 : Fin 1) * 128 + 1 * (j 1).val = win2_5.index t (1 : Fin 2) * 128 + 1 * (j 1).val; omega

/-- An index of the result array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v19).slice (win2_5.rect t)).set ↔ _
  rw [View.set_slice_whole, Rect.mem_set_unit]
  exact Iff.rfl

/-- The ten blocks tile the result array: row n is in the block of point n / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the launch the result array is the update of the message, weight and bias arrays the launch found. -/
theorem array_eq (c : Dev nD) : (dat2 V c).arrAt 5 cfg2.N
    = mlp (V c main_v18) (V c main_arg9) (V c main_arg10) (V c main_arg11) (V c main_arg12) :=
  (dat2 V c).arrAt_eq_of_cover 5 _ (fun t _ => flushed_eq V c t) cover

end Cert.KernelIdeal.NodeMlp

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgeFilter.lean ====
/-
  The edge filter, the first of the program's three kernel launches. Its grid has 125 points; point t reads rows
  6400 t … 6400 t + 6399 of the edge attributes and of the edge-weight column, and the whole of two weight matrices
  and two bias vectors, and writes back those rows of: a dense layer on the attributes, the shifted softplus of every
  entry, a second dense layer, each row then scaled by the cosine cutoff of that edge's weight. Row e of the result
  depends on row e of the attributes and on the weight of edge e only, so each block written back is a block of ONE
  whole-array function, and the 125 blocks tile the result array: after the launch the result array is that function
  of the arrays the launch found.
-/
import proofs.«104091_j14370960572978_2_alg».proof.Proof.Gen.KernelIdeal.Frame
import proofs.«104091_j14370960572978_2_alg».proof.Proof.LibDotRows
import proofs.«104091_j14370960572978_2_alg».proof.Proof.LibKeepdims
import proofs.«104091_j14370960572978_2_alg».proof.Proof.Entrywise
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeFilter

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
open Cert.Entrywise

theorem hz : (![0, 0] : Fin 2 → Nat) = fun _ => 0 := funext fun a => by fin_cases a <;> rfl
theorem hz1 : (![0] : Fin 1 → Nat) = fun _ => 0 := funext fun a => by fin_cases a; rfl

/-- Dense layer, shifted softplus, dense layer, times the cutoff of the edge's weight: entry (e, f). -/
def filt (EA : S800000x50.Idx → EReal) (EW : S800000x1.Idx → EReal) (W1 : S128x50.Idx → EReal) (B1 : S128.Idx → EReal)
    (W2 : S128x128.Idx → EReal) (B2 : S128.Idx → EReal) : S800000x128.Idx → EReal :=
  fun i => ((∑ k : Fin 128, ssp ((∑ l : Fin 50, EA (ix2 (i 0) l) * W1 (ix2 k l)) + B1 (ix1 k)) * W2 (ix2 (i 1) k)) + B2 (ix1 (i 1)))
    * cutoff (EW (ix2 (i 0) (0 : Fin 1)))

namespace First
/-- The first product contracts the 50 attribute positions, the second axis of both operands. -/
theorem rowsDot : RowsDot dot_S6400x50_S128x50_S6400x128_1_1_0_0_n_n where
  rank := rfl
  size := rfl
  l0 := fun j q => by
    unfold DotDims.lhsIdx
    rw [dif_neg (show ¬(0 : Fin S6400x50.rank) ∈ dot_S6400x50_S128x50_S6400x128_1_1_0_0_n_n.lhsBatch by decide), dif_pos (show (0 : Fin S6400x50.rank) ∈ dot_S6400x50_S128x50_S6400x128_1_1_0_0_n_n.lhsNonContracting by decide)]
    rfl
  l1 := fun j q => dot_S6400x50_S128x50_S6400x128_1_1_0_0_n_n.lhsIdx_val_of_single rfl j q
  r0 := fun j q => by
    unfold DotDims.rhsIdx
    rw [dif_neg (show ¬(0 : Fin S128x50.rank) ∈ dot_S6400x50_S128x50_S6400x128_1_1_0_0_n_n.rhsBatch by decide), dif_pos (show (0 : Fin S128x50.rank) ∈ dot_S6400x50_S128x50_S6400x128_1_1_0_0_n_n.rhsNonContracting by decide)]
    rfl
  r1 := fun j q => dot_S6400x50_S128x50_S6400x128_1_1_0_0_n_n.rhsIdx_val_of_single rfl j q
end First
namespace Second
/-- The second product contracts the 128 filter positions, the second axis of both operands. -/
theorem rowsDot : RowsDot dot_S6400x128_S128x128_S6400x128_1_1_0_0_n_n where
  rank := rfl
  size := rfl
  l0 := fun j q => by
    unfold DotDims.lhsIdx
    rw [dif_neg (show ¬(0 : Fin S6400x128.rank) ∈ dot_S6400x128_S128x128_S6400x128_1_1_0_0_n_n.lhsBatch by decide), dif_pos (show (0 : Fin S6400x128.rank) ∈ dot_S6400x128_S128x128_S6400x128_1_1_0_0_n_n.lhsNonContracting by decide)]
    rfl
  l1 := fun j q => dot_S6400x128_S128x128_S6400x128_1_1_0_0_n_n.lhsIdx_val_of_single rfl j q
  r0 := fun j q => by
    unfold DotDims.rhsIdx
    rw [dif_neg (show ¬(0 : Fin S128x128.rank) ∈ dot_S6400x128_S128x128_S6400x128_1_1_0_0_n_n.rhsBatch by decide), dif_pos (show (0 : Fin S128x128.rank) ∈ dot_S6400x128_S128x128_S6400x128_1_1_0_0_n_n.rhsNonContracting by decide)]
    rfl
  r1 := fun j q => dot_S6400x128_S128x128_S6400x128_1_1_0_0_n_n.rhsIdx_val_of_single rfl j q
end Second

/-- The body's stored value as dense layer, softplus, dense layer, times the broadcast cutoff column (the body's text,
    regrouped). -/
theorem payload_form (x0 : Vec Ideal S6400x50 .f32) (x1 : Vec Ideal S6400x1 .f32) (x2 : Vec Ideal S128x50 .f32) (x3 : Vec Ideal S128 .f32)
    (x4 : Vec Ideal S128x128 .f32) (x5 : Vec Ideal S128 .f32) :
    k0_pay1 (F := Ideal) (k0_pay2 x1) (k0_pay3 x0 x2 x3 x4) (k0_pay4 x5)
      = mulf
          (addf (matmul dot_S6400x128_S128x128_S6400x128_1_1_0_0_n_n none
              (truncf .bf16 (sspVec (addf (matmul dot_S6400x50_S128x50_S6400x128_1_1_0_0_n_n none
                  (truncf .bf16 x0 bitsLt_bf16_f32) (truncf .bf16 x2 bitsLt_bf16_f32) (constant S6400x128 .f32 0x00000000#32))
                (broadcastTo S6400x128 (shapeCast S1x128 x3 shapeCasts_S128_S1x128) broadcasts_S1x128_S6400x128))) bitsLt_bf16_f32)
              (truncf .bf16 x4 bitsLt_bf16_f32) (constant S6400x128 .f32 0x00000000#32))
            (broadcastTo S6400x128 (shapeCast S1x128 x5 shapeCasts_S128_S1x128) broadcasts_S1x128_S6400x128))
          (broadcastTo S6400x128 (cutoffVec (shapeCast S6400x1 x1 shapeCasts_S6400x1_S6400x1)) broadcasts_S6400x1_S6400x128) := rfl

/-- What the body stores, at an entry of the block. -/
theorem payload_at (x0 : Vec Ideal S6400x50 .f32) (x1 : Vec Ideal S6400x1 .f32) (x2 : Vec Ideal S128x50 .f32) (x3 : Vec Ideal S128 .f32)
    (x4 : Vec Ideal S128x128 .f32) (x5 : Vec Ideal S128 .f32) (j : S6400x128.Idx) :
    k0_pay1 (F := Ideal) (k0_pay2 x1) (k0_pay3 x0 x2 x3 x4) (k0_pay4 x5) j
      = (((∑ k : Fin 128, ssp ((∑ l : Fin 50, (x0 (ix2 (j 0) l) : EReal) * (x2 (ix2 k l) : EReal)) + (x3 (ix1 k) : EReal)) * (x4 (ix2 (j 1) k) : EReal))
          + (x5 (ix1 (j 1)) : EReal)) * cutoff (x1 (ix2 (j 0) (0 : Fin 1))) : EReal) := by
  obtain ⟨p, q, rfl⟩ : ∃ (p : Fin 6400) (q : Fin 128), j = ix2 p q := ⟨j 0, j 1, eq_ix2 j⟩
  rw [payload_form]
  refine (mulf_apply _ _ (ix2 p q)).trans ?_
  rw [broadcastTo_a1_ab_apply, cutoffVec_apply, shapeCast_self]
  refine congrArg (· * cutoff (x1 (ix2 p (0 : Fin 1)))) ?_
  refine (dense_rows_ix2 Second.rowsDot none _ _ x5 _ _ p q).trans ?_
  refine congrArg (· + (x5 (ix1 q) : EReal)) (Finset.sum_congr rfl fun k _ => ?_)
  refine congrArg (· * (x4 (ix2 q k) : EReal)) ?_
  refine (sspVec_apply _ (ix2 p k)).trans (congrArg ssp ?_)
  exact dense_rows_ix2 First.rowsDot none _ _ x3 _ _ p k

/-- The stored entry is the filter's entry, whenever row (j 0) of the attribute block and of the weight-column block
    are row (i 0) of their arrays, the column is the same, and the weight and bias blocks are their arrays. -/
theorem payload_filt (EA : S800000x50.Idx → EReal) (EW : S800000x1.Idx → EReal) (W1 : S128x50.Idx → EReal) (B1 : S128.Idx → EReal)
    (W2 : S128x128.Idx → EReal) (B2 : S128.Idx → EReal)
    (x0 : S6400x50.Idx → EReal) (x1 : S6400x1.Idx → EReal) (x2 : S128x50.Idx → EReal) (x3 : S128.Idx → EReal)
    (x4 : S128x128.Idx → EReal) (x5 : S128.Idx → EReal) (j : S6400x128.Idx) (i : S800000x128.Idx)
    (h0 : ∀ l : Fin 50, x0 (ix2 (j 0) l) = EA (ix2 (i 0) l)) (h1 : x1 (ix2 (j 0) (0 : Fin 1)) = EW (ix2 (i 0) (0 : Fin 1)))
    (h2 : ∀ (k : Fin 128) (l : Fin 50), x2 (ix2 k l) = W1 (ix2 k l)) (h3 : ∀ k : Fin 128, x3 (ix1 k) = B1 (ix1 k))
    (h4 : ∀ k : Fin 128, x4 (ix2 (j 1) k) = W2 (ix2 (i 1) k)) (h5 : x5 (ix1 (j 1)) = B2 (ix1 (i 1))) :
    k0_pay1 (F := Ideal) (k0_pay2 x1) (k0_pay3 x0 x2 x3 x4) (k0_pay4 x5) j = filt EA EW W1 B1 W2 B2 i := by
  rw [payload_at]
  unfold filt
  rw [h5, h1]
  refine congrArg (fun s => (s + B2 (ix1 (i 1))) * cutoff (EW (ix2 (i 0) (0 : Fin 1)))) (Finset.sum_congr rfl fun k _ => ?_)
  rw [h4 k, h3 k]
  refine congrArg (fun s => ssp (s + B1 (ix1 k)) * W2 (ix2 (i 1) k)) (Finset.sum_congr rfl fun l _ => ?_)
  rw [h0 l, h2 k l]

/-- The block indices over the grid: the attribute block, the weight-column block and the result block move together
    down the rows; the weight and bias blocks stay; no block moves along the columns. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 :=
  (by decide +kernel : ∀ t : Fin grid0.N, _)

/-- Every one of the 125 row blocks is some point's. -/
theorem idx_onto : ∀ (q0 : Fin 125), ∃ t : Fin cfg0.N, win0_6.index t = ![q0.val, 0] :=
  (by decide +kernel : ∀ (q0 : Fin 125), ∃ t : Fin grid0.N, win0_6.index t = ![q0.val, 0])

variable (V : (c : Dev nD) → (b : Ref sig .tc) → Buf (Elt Ideal) ((c : Thread nD τ).loc b))

/-- What point t writes back is block t of the filter of the arrays the launch found. -/
theorem flushed_eq (c : Dev nD) (t : Fin cfg0.N) :
    (dat0 V c).flushed 6 t = ((cfg0.win 6).blk t).view.read (Elt Ideal)
      (filt (V c main_arg3) (V c main_v4) (V c main_arg4) (V c main_arg5) (V c main_arg6) (V c main_arg7)) := by
  show (cfg0.win 6).cut (grid0.coords t) ((dat0 V c).after 6 t) = _
  rw [after0_6]
  unfold out0_6
  rw [View.canon_unit_zero hz]
  simp only [View.ld_unit_zero (S := S6400x50) hz, View.ld_unit_zero (S := S6400x1) hz, View.ld_unit_zero (S := S128x50) hz,
    View.ld_unit_zero (S := S128x128) hz, View.ld_unit_zero (S := S128) hz1]
  obtain ⟨e0, e1, e2, e3, e4, e5, e6, e7, e8, e9, e10⟩ := idx_facts t
  refine funext fun (j : S6400x128.Idx) => ?_
  refine payload_filt (V c main_arg3) (V c main_v4) (V c main_arg4) (V c main_arg5) (V c main_arg6) (V c main_arg7)
    (iblk0 V c 0 t) (iblk0 V c 1 t) (iblk0 V c 2 t) (iblk0 V c 3 t) (iblk0 V c 4 t) (iblk0 V c 5 t) j (((cfg0.win 6).blk t).view.emb j)
    (fun l => ?_) ?_ (fun k l => ?_) (fun k => ?_) (fun k => ?_) ?_
  · show V c main_arg3 (((cfg0.win 0).blk t).view.emb (ix2 (j 0) l)) = V c main_arg3 (ix2 ((((cfg0.win 6).blk t).view.emb j) 0) l)
    refine congrArg (V c main_arg3) ?_
    funext a; apply Fin.ext
    match a with
    | ⟨0, _⟩ => show win0_0.index t (0 : Fin 2) * 6400 + 1 * (j 0).val = win0_6.index t (0 : Fin 2) * 6400 + 1 * (j 0).val; omega
    | ⟨1, _⟩ => show win0_0.index t (1 : Fin 2) * 50 + 1 * l.val = l.val; omega
  · show V c main_v4 (((cfg0.win 1).blk t).view.emb (ix2 (j 0) (0 : Fin 1))) = V c main_v4 (ix2 ((((cfg0.win 6).blk t).view.emb j) 0) (0 : Fin 1))
    refine congrArg (V c main_v4) ?_
    funext a; apply Fin.ext
    match a with
    | ⟨0, _⟩ => show win0_1.index t (0 : Fin 2) * 6400 + 1 * (j 0).val = win0_6.index t (0 : Fin 2) * 6400 + 1 * (j 0).val; omega
    | ⟨1, _⟩ => show win0_1.index t (1 : Fin 2) * 1 + 1 * 0 = 0; omega
  · show V c main_arg4 (((cfg0.win 2).blk t).view.emb (ix2 k l)) = V c main_arg4 (ix2 k l)
    refine congrArg (V c main_arg4) ?_
    funext a; apply Fin.ext
    match a with
    | ⟨0, _⟩ => show win0_2.index t (0 : Fin 2) * 128 + 1 * k.val = k.val; omega
    | ⟨1, _⟩ => show win0_2.index t (1 : Fin 2) * 50 + 1 * l.val = l.val; omega
  · show V c main_arg5 (((cfg0.win 3).blk t).view.emb (ix1 k)) = V c main_arg5 (ix1 k)
    refine congrArg (V c main_arg5) ?_
    funext a; apply Fin.ext
    match a with
    | ⟨0, _⟩ => show win0_3.index t (0 : Fin 1) * 128 + 1 * k.val = k.val; omega
  · show V c main_arg6 (((cfg0.win 4).blk t).view.emb (ix2 (j 1) k)) = V c main_arg6 (ix2 ((((cfg0.win 6).blk t).view.emb j) 1) k)
    refine congrArg (V c main_arg6) ?_
    funext a; apply Fin.ext
    match a with
    | ⟨0, _⟩ => show win0_4.index t (0 : Fin 2) * 128 + 1 * (j 1).val = win0_6.index t (1 : Fin 2) * 128 + 1 * (j 1).val; omega
    | ⟨1, _⟩ => show win0_4.index t (1 : Fin 2) * 128 + 1 * k.val = k.val; omega
  · show V c main_arg7 (((cfg0.win 5).blk t).view.emb (ix1 (j 1))) = V c main_arg7 (ix1 ((((cfg0.win 6).blk t).view.emb j) 1))
    refine congrArg (V c main_arg7) ?_
    funext a; apply Fin.ext
    match a with
    | ⟨0, _⟩ => show win0_5.index t (0 : Fin 1) * 128 + 1 * (j 1).val = win0_6.index t (1 : Fin 2) * 128 + 1 * (j 1).val; omega

/-- An index of the result array is in point t's block iff each coordinate is in the block's range on its axis. -/
theorem mem_blk (t : Fin cfg0.N) (i : S800000x128.Idx) :
    i ∈ ((cfg0.win 6).blk t).view.set ↔ ∀ a : Fin 2, win0_6.index t a * S6400x128.size a ≤ (i a).val ∧ (i a).val < win0_6.index t a * S6400x128.size a + S6400x128.size a := by
  show i ∈ ((View.whole main_v5).slice (win0_6.rect t)).set ↔ _
  rw [View.set_slice_whole, Rect.mem_set_unit]
  exact Iff.rfl

/-- The 125 blocks tile the result array: row e is in the block of point e / 6400. -/
theorem cover (i : S800000x128.Idx) : ∃ t : Fin cfg0.N, (cfg0.win 6).flush t = true ∧ i ∈ ((cfg0.win 6).blk t).view.set := by
  have hi0 : (i 0).val < 800000 := (i 0).isLt
  have hi1 : (i 1).val < 128 := (i 1).isLt
  obtain ⟨t, ht⟩ := idx_onto ⟨(i 0).val / 6400, by omega⟩
  have q0 : win0_6.index t (0 : Fin 2) = (i 0).val / 6400 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 6400 ≤ (i 0).val ∧ (i 0).val < win0_6.index t (0 : Fin 2) * 6400 + 6400; omega
  | ⟨1, _⟩ => show win0_6.index t (1 : Fin 2) * 128 ≤ (i 1).val ∧ (i 1).val < win0_6.index t (1 : Fin 2) * 128 + 128; omega

/-- After the launch the result array is the filter of the attribute, weight-column, weight and bias arrays the launch
    found. -/
theorem array_eq (c : Dev nD) : (dat0 V c).arrAt 6 cfg0.N
    = filt (V c main_arg3) (V c main_v4) (V c main_arg4) (V c main_arg5) (V c main_arg6) (V c main_arg7) :=
  (dat0 V c).arrAt_eq_of_cover 6 _ (fun t _ => flushed_eq V c t) cover

end Cert.KernelIdeal.EdgeFilter

end
-- ==== Proof.KernelValue.lean ====
/-
  The idealized kernel program's result as one function of its thirteen argument arrays. The program slices the two
  rows of the edge index, recasts the edge weights as a column, launches the edge filter and the node projection,
  then on the host gathers the projected row of each edge's source (a negative index first wrapped by the node count),
  multiplies it entrywise by the edge's filter row, and adds the products into the row of the edge's destination,
  starting from zeros; the node update is launched on that sum. The buffers' contents at each boundary are a fold from
  the launch memory: no stretch of host operations writes an argument, a launch changes only its result array, and
  each launch's result array is the whole-array function of what the launch found. Read back through the fold, the
  result array ends at the node update of the aggregated messages, every leaf an argument as launched.
-/
import proofs.«104091_j14370960572978_2_alg».proof.Proof.NodeProjection
import proofs.«104091_j14370960572978_2_alg».proof.Proof.NodeMlp
import proofs.«104091_j14370960572978_2_alg».proof.Proof.EdgeFilter
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.StableHlo (after_cons after_nil)

/-- The host's aggregation: from zeros, add into row dst e the projected row of node src e (src e + 50000 when src e is
    negative) times, entry by entry, row e of the filter — the projected rows widened from their storage format first,
    which changes nothing on the extended reals. -/
def aggregate (src dst : IVec S800000 32) (h : FVec Ideal S50000x128 .bf16) (W : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (extf .f32 (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))) bitsLt_bf16_f32) W)

/-- The program's result as one function of its argument arrays. -/
def whole (a0 : S50000x128.Idx → EReal) (a1 : IVec S2x800000 32) (a2 : S800000.Idx → EReal) (a3 : S800000x50.Idx → EReal)
    (a4 : S128x50.Idx → EReal) (a5 : S128.Idx → EReal) (a6 : S128x128.Idx → EReal) (a7 : S128.Idx → EReal)
    (a8 a9 : S128x128.Idx → EReal) (a10 : S128.Idx → EReal) (a11 : S128x128.Idx → EReal) (a12 : S128.Idx → EReal) : S50000x128.Idx → EReal :=
  NodeMlp.mlp
    (aggregate
      (shapeCast S800000 (extractStridedSlice S1x800000 ![0, 0] a1 slices_S2x800000_S1x800000_0_0) shapeCasts_S1x800000_S800000)
      (shapeCast S800000 (extractStridedSlice S1x800000 ![1, 0] a1 slices_S2x800000_S1x800000_1_0) shapeCasts_S1x800000_S800000)
      (NodeProj.proj a0 a8)
      (EdgeFilter.filt a3 (broadcastInDim S800000x1 ![0] bcast_S800000_S800000x1_0 a2) a4 a5 a6 a7))
    a9 a10 a11 a12

variable (m : (ℓ : Loc nD τ sig) → Buf (Elt Ideal) ℓ) (ρ : Dev nD → PrngReg) (c : Dev nD)

/-! ## The first stretch of host operations writes no argument -/

theorem W1_main_arg0 : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_main_arg3 : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_main_arg4 : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_main_arg5 : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_main_arg6 : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_main_arg7 : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_main_arg8 : W1 m ρ c (Proc.devRef .tc main_arg8) = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-! ## What the first stretch computes -/

/-- The edge weights recast as a column. -/
theorem W1_main_v4 : (W1 m ρ c (Proc.devRef .tc main_v4) : S800000x1.Idx → EReal)
    = broadcastInDim S800000x1 ![0] bcast_S800000_S800000x1_0 (m ((c : Thread nD τ).loc main_arg2) : S800000.Idx → EReal) := by
  show StableHlo.after hostOps0 (W0 m ρ c) (Proc.devRef .tc main_v4) = _
  after_results

/-- The sources: row 0 of the edge index. -/
theorem W1_main_v1 : (W1 m ρ c (Proc.devRef .tc main_v1) : IVec S800000 32)
    = shapeCast S800000 (extractStridedSlice S1x800000 ![0, 0] (m ((c : Thread nD τ).loc main_arg1) : IVec S2x800000 32) slices_S2x800000_S1x800000_0_0) shapeCasts_S1x800000_S800000 := by
  show StableHlo.after hostOps0 (W0 m ρ c) (Proc.devRef .tc main_v1) = _
  after_results
  rfl

/-- The destinations: row 1 of the edge index. -/
theorem W1_main_v3 : (W1 m ρ c (Proc.devRef .tc main_v3) : IVec S800000 32)
    = shapeCast S800000 (extractStridedSlice S1x800000 ![1, 0] (m ((c : Thread nD τ).loc main_arg1) : IVec S2x800000 32) slices_S2x800000_S1x800000_1_0) shapeCasts_S1x800000_S800000 := by
  show StableHlo.after hostOps0 (W0 m ρ c) (Proc.devRef .tc main_v3) = _
  after_results
  rfl

/-! ## After the two first launches -/

/-- The edge filter's result array, of the arguments as launched. -/
theorem W2_main_v5 : (W2 m ρ c (Proc.devRef .tc main_v5) : S800000x128.Idx → EReal)
    = EdgeFilter.filt (m ((c : Thread nD τ).loc main_arg3)) (broadcastInDim S800000x1 ![0] bcast_S800000_S800000x1_0 (m ((c : Thread nD τ).loc main_arg2) : S800000.Idx → EReal))
        (m ((c : Thread nD τ).loc main_arg4)) (m ((c : Thread nD τ).loc main_arg5)) (m ((c : Thread nD τ).loc main_arg6)) (m ((c : Thread nD τ).loc main_arg7)) := by
  refine ((W2_arr m ρ c 6).trans (EdgeFilter.array_eq (V1 m ρ) c)).trans ?_
  show EdgeFilter.filt (W1 m ρ c (Proc.devRef .tc main_arg3)) (W1 m ρ c (Proc.devRef .tc main_v4)) (W1 m ρ c (Proc.devRef .tc main_arg4))
    (W1 m ρ c (Proc.devRef .tc main_arg5)) (W1 m ρ c (Proc.devRef .tc main_arg6)) (W1 m ρ c (Proc.devRef .tc main_arg7)) = _
  rw [W1_main_arg3, W1_main_v4, W1_main_arg4, W1_main_arg5, W1_main_arg6, W1_main_arg7]

/-- The node projection's result array, of the arguments as launched. -/
theorem W3_main_v6 : (W3 m ρ c (Proc.devRef .tc main_v6) : S50000x128.Idx → EReal) = NodeProj.proj (m ((c : Thread nD τ).loc main_arg0)) (m ((c : Thread nD τ).loc main_arg8)) := by
  refine ((W3_arr m ρ c 2).trans (NodeProj.array_eq (V2 m ρ) c)).trans ?_
  show NodeProj.proj (W2 m ρ c (Proc.devRef .tc main_arg0)) (W2 m ρ c (Proc.devRef .tc main_arg8)) = _
  rw [W2_of_ne m ρ c main_arg0 (by decide), W2_of_ne m ρ c main_arg8 (by decide), W1_main_arg0, W1_main_arg8]

/-- The second launch leaves the filter's array, and both launches leave the sliced index rows. -/
theorem W3_main_v5 : W3 m ρ c (Proc.devRef .tc main_v5) = W2 m ρ c (Proc.devRef .tc main_v5) := W3_of_ne m ρ c main_v5 (by decide)
theorem W3_main_v1 : W3 m ρ c (Proc.devRef .tc main_v1) = W1 m ρ c (Proc.devRef .tc main_v1) :=
  (W3_of_ne m ρ c main_v1 (by decide)).trans (W2_of_ne m ρ c main_v1 (by decide))
theorem W3_main_v3 : W3 m ρ c (Proc.devRef .tc main_v3) = W1 m ρ c (Proc.devRef .tc main_v3) :=
  (W3_of_ne m ρ c main_v3 (by decide)).trans (W2_of_ne m ρ c main_v3 (by decide))

/-! ## The second stretch of host operations: the aggregation -/

theorem W4_main_v18 : (W4 m ρ c (Proc.devRef .tc main_v18) : S50000x128.Idx → EReal)
    = aggregate (W3 m ρ c (Proc.devRef .tc main_v1)) (W3 m ρ c (Proc.devRef .tc main_v3)) (W3 m ρ c (Proc.devRef .tc main_v6)) (W3 m ρ c (Proc.devRef .tc main_v5)) := by
  show StableHlo.after hostOps2 (W3 m ρ c) (Proc.devRef .tc main_v18) = _
  after_results
  rfl

/-! ## The last launch finds its weight and bias arguments as launched -/

theorem V4_main_arg9 : V4 m ρ c main_arg9 = m ((c : Thread nD τ).loc main_arg9) :=
  (((W5_arr m ρ c 1).trans (((dat2 (V4 m ρ) c).arrAt_in 1 rfl _).trans (A_eq2 (V4 m ρ) c 1))).symm).trans (W5_main_arg9 m ρ c)

theorem V4_main_arg10 : V4 m ρ c main_arg10 = m ((c : Thread nD τ).loc main_arg10) :=
  (((W5_arr m ρ c 2).trans (((dat2 (V4 m ρ) c).arrAt_in 2 rfl _).trans (A_eq2 (V4 m ρ) c 2))).symm).trans (W5_main_arg10 m ρ c)

theorem V4_main_arg11 : V4 m ρ c main_arg11 = m ((c : Thread nD τ).loc main_arg11) :=
  (((W5_arr m ρ c 3).trans (((dat2 (V4 m ρ) c).arrAt_in 3 rfl _).trans (A_eq2 (V4 m ρ) c 3))).symm).trans (W5_main_arg11 m ρ c)

theorem V4_main_arg12 : V4 m ρ c main_arg12 = m ((c : Thread nD τ).loc main_arg12) :=
  (((W5_arr m ρ c 4).trans (((dat2 (V4 m ρ) c).arrAt_in 4 rfl _).trans (A_eq2 (V4 m ρ) c 4))).symm).trans (W5_main_arg12 m ρ c)

/-! ## The result -/

/-- The last boundary's contents of the result buffer: the whole function of the arguments as launched. -/
theorem result_eq : (W5 m ρ c (Proc.devRef .tc main_v19) : S50000x128.Idx → EReal)
    = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W5_arr m ρ c 5).trans (NodeMlp.array_eq (V4 m ρ) c)).trans ?_
  show NodeMlp.mlp (W4 m ρ c (Proc.devRef .tc main_v18)) (V4 m ρ c main_arg9) (V4 m ρ c main_arg10) (V4 m ρ c main_arg11) (V4 m ρ c main_arg12) = _
  rw [V4_main_arg9, V4_main_arg10, V4_main_arg11, V4_main_arg12, W4_main_v18, W3_main_v1, W3_main_v3, W3_main_v6, W3_main_v5,
    W2_main_v5, W1_main_v1, W1_main_v3]
  rfl

end Cert.KernelIdeal.Whole

end
-- ==== Proof.ReferenceStages.lean ====
/-
  The reference program's stages read at a row and a column. Its dense layers are products with TRANSPOSED weights, so
  entry (r, c) sums, over the inner position k, left (r, k) times weights (c, k) — the kernels' products against the
  rows of the weights; its softplus is the host's spelling of the shifted softplus, its cutoff the host's spelling of
  the cosine cutoff, both equal to the kernels' on the extended reals. So the reference's filter array, its projected
  features and its final update are the edge filter, the node projection and the node update of the same arrays.
-/
import proofs.«104091_j14370960572978_2_alg».proof.Proof.Gen.ReferenceIdeal.Read
import proofs.«104091_j14370960572978_2_alg».proof.Proof.KernelValue
import proofs.«104091_j14370960572978_2_alg».proof.Proof.Entrywise

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Entrywise
open scoped BigOperators

/-! ## The stages' composed index functions, in coordinates -/

theorem e12l (r : Fin 800000) (q : Fin 128) (l : Fin 50) : lidx_main_v12 (ix2 r q) l = ix2 r l :=
  funext fun a => by match a with | ⟨0, _⟩ => rfl | ⟨1, _⟩ => rfl
theorem e12r (r : Fin 800000) (q : Fin 128) (l : Fin 50) : idx_main_v11 (ridx_main_v12 (ix2 r q) l) = ix2 q l :=
  funext fun a => by match a with | ⟨0, _⟩ => rfl | ⟨1, _⟩ => rfl
theorem e14 (r : Fin 800000) (q : Fin 128) : idx_main_v13 (idx_main_v14 (ix2 r q)) = ix1 q :=
  funext fun a => by match a with | ⟨0, _⟩ => rfl
theorem e20l (r : Fin 800000) (q : Fin 128) (k : Fin 128) : lidx_main_v20 (ix2 r q) k = ix2 r k :=
  funext fun a => by match a with | ⟨0, _⟩ => rfl | ⟨1, _⟩ => rfl
theorem e20r (r : Fin 800000) (q : Fin 128) (k : Fin 128) : idx_main_v19 (ridx_main_v20 (ix2 r q) k) = ix2 q k :=
  funext fun a => by match a with | ⟨0, _⟩ => rfl | ⟨1, _⟩ => rfl
theorem e22 (r : Fin 800000) (q : Fin 128) : idx_main_v21 (idx_main_v22 (ix2 r q)) = ix1 q :=
  funext fun a => by match a with | ⟨0, _⟩ => rfl
theorem e25 (r : Fin 800000) (q : Fin 128) : idx_main_v24 (idx_main_v25 (ix2 r q)) = ix1 r :=
  funext fun a => by match a with | ⟨0, _⟩ => rfl
theorem e28l (r : Fin 50000) (q : Fin 128) (k : Fin 128) : lidx_main_v28 (ix2 r q) k = ix2 r k :=
  funext fun a => by match a with | ⟨0, _⟩ => rfl | ⟨1, _⟩ => rfl
theorem e28r (r : Fin 50000) (q : Fin 128) (k : Fin 128) : idx_main_v27 (ridx_main_v28 (ix2 r q) k) = ix2 q k :=
  funext fun a => by match a with | ⟨0, _⟩ => rfl | ⟨1, _⟩ => rfl
theorem e41l (r : Fin 50000) (q : Fin 128) (k : Fin 128) : lidx_main_v41 (ix2 r q) k = ix2 r k :=
  funext fun a => by match a with | ⟨0, _⟩ => rfl | ⟨1, _⟩ => rfl
theorem e41r (r : Fin 50000) (q : Fin 128) (k : Fin 128) : idx_main_v40 (ridx_main_v41 (ix2 r q) k) = ix2 q k :=
  funext fun a => by match a with | ⟨0, _⟩ => rfl | ⟨1, _⟩ => rfl
theorem e43 (r : Fin 50000) (q : Fin 128) : idx_main_v42 (idx_main_v43 (ix2 r q)) = ix1 q :=
  funext fun a => by match a with | ⟨0, _⟩ => rfl
theorem e49l (r : Fin 50000) (q : Fin 128) (k : Fin 128) : lidx_main_v49 (ix2 r q) k = ix2 r k :=
  funext fun a => by match a with | ⟨0, _⟩ => rfl | ⟨1, _⟩ => rfl
theorem e49r (r : Fin 50000) (q : Fin 128) (k : Fin 128) : idx_main_v48 (ridx_main_v49 (ix2 r q) k) = ix2 q k :=
  funext fun a => by match a with | ⟨0, _⟩ => rfl | ⟨1, _⟩ => rfl
theorem e51 (r : Fin 50000) (q : Fin 128) : idx_main_v50 (idx_main_v51 (ix2 r q)) = ix1 q :=
  funext fun a => by match a with | ⟨0, _⟩ => rfl

/-! ## The edge filter's stages -/

/-- The first dense layer at (r, k): the attributes of edge r against row k of the first weights, plus the bias at k. -/
theorem dense1 (x3 : (⟨S800000x50, .f32⟩ : BufTy).Contents (Elt Ideal)) (x4 : (⟨S128x50, .f32⟩ : BufTy).Contents (Elt Ideal)) (x5 : (⟨S128, .f32⟩ : BufTy).Contents (Elt Ideal)) (r : Fin 800000) (k : Fin 128) :
    val_main_v15 (F := Ideal) x3 x4 x5 (ix2 r k)
      = ((∑ l : Fin 50, (x3 (ix2 r l) : EReal) * (x4 (ix2 k l) : EReal)) + (x5 (ix1 k) : EReal) : EReal) := by
  rw [val_main_v15_apply, val_main_v12_apply, val_main_v14_apply, val_main_v13_apply]
  simp only [val_main_v11_apply, e12l, e12r, e14]
  rfl

/-- The reference's softplus minus log 2, entry by entry, is the host's spelling of the shifted softplus. -/
theorem softplus0 (x3 : (⟨S800000x50, .f32⟩ : BufTy).Contents (Elt Ideal)) (x4 : (⟨S128x50, .f32⟩ : BufTy).Contents (Elt Ideal)) (x5 : (⟨S128, .f32⟩ : BufTy).Contents (Elt Ideal)) (i : S800000x128.Idx) :
    val_main_v18 (F := Ideal) x3 x4 x5 i = sspHost (val_main_v15 (F := Ideal) x3 x4 x5 i) := by
  simp only [val_main_v18_apply, val_main_v16_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_v17_apply, val_main_call0_cst_apply, val_main_cst_2_apply]
  rfl

/-- The second dense layer at (r, q). -/
theorem dense2 (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 800000) (q : Fin 128) :
    val_main_v23 (F := Ideal) x3 x4 x5 x6 x7 (ix2 r q)
      = ((∑ k : Fin 128, (val_main_v18 (F := Ideal) x3 x4 x5 (ix2 r k) : EReal) * (x6 (ix2 q k) : EReal)) + (x7 (ix1 q) : EReal) : EReal) := by
  rw [val_main_v23_apply, val_main_v20_apply, val_main_v22_apply, val_main_v21_apply]
  simp only [val_main_v19_apply, e20l, e20r, e22]
  rfl

/-- The cutoff broadcast across the filters, at (r, q): the host's spelling of the cosine cutoff of edge r's weight. -/
theorem cut (x2 : (⟨S800000, .f32⟩ : BufTy).Contents (Elt Ideal)) (r : Fin 800000) (q : Fin 128) :
    val_main_v25 (F := Ideal) x2 (ix2 r q) = cutoffHost (x2 (ix1 r)) := by
  rw [val_main_v25_apply, val_main_v24_apply, e25]
  simp only [val_main_v10_apply, val_main_v9_apply, val_main_v8_apply, val_main_v7_apply, val_main_v6_apply, val_main_v5_apply,
    val_main_v4_apply, val_main_cst_apply, val_main_cst_0_apply, val_main_cst_1_apply]
  rfl

/-- A vector recast as a column reads, at (r, 0), the vector at r. -/
theorem col_apply (x : S800000.Idx → EReal) (h : S800000.BroadcastsInDim S800000x1 ![0]) (r : Fin 800000) :
    broadcastInDim S800000x1 ![0] h x (ix2 r (0 : Fin 1)) = x (ix1 r) :=
  broadcastInDim_apply _ h x (ix2 r (0 : Fin 1)) (ix1 r) (fun a => match a with
    | ⟨0, _⟩ => by show r.val = if (800000 : Nat) = 1 then 0 else r.val; rw [if_neg (by decide)])

/-- The reference's filter array is the edge filter of the arguments, the edge weights recast as a column. -/
theorem filt_ref (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v26 (F := Ideal) x2 x3 x4 x5 x6 x7
      = Cert.KernelIdeal.EdgeFilter.filt x3 (broadcastInDim Cert.KernelIdeal.S800000x1 ![0] Cert.KernelIdeal.Facts₀.bcast_S800000_S800000x1_0 x2) x4 x5 x6 x7 := by
  funext i
  obtain ⟨r, q, rfl⟩ : ∃ (r : Fin 800000) (q : Fin 128), i = ix2 r q := ⟨i 0, i 1, eq_ix2 i⟩
  rw [val_main_v26_apply, dense2, cut]
  simp only [softplus0, dense1, sspHost_eq, cutoffHost_eq]
  show _ = ((∑ k : Fin 128, ssp ((∑ l : Fin 50, (x3 (ix2 r l) : EReal) * (x4 (ix2 k l) : EReal)) + (x5 (ix1 k) : EReal)) * (x6 (ix2 q k) : EReal))
      + (x7 (ix1 q) : EReal))
    * cutoff (broadcastInDim Cert.KernelIdeal.S800000x1 ![0] Cert.KernelIdeal.Facts₀.bcast_S800000_S800000x1_0 x2 (ix2 r (0 : Fin 1)))
  rw [col_apply]
  rfl

/-! ## The node projection -/

theorem proj_ref (x0 : (⟨S50000x128, .f32⟩ : BufTy).Contents (Elt Ideal)) (x8 : (⟨S128x128, .f32⟩ : BufTy).Contents (Elt Ideal)) : val_main_v28 (F := Ideal) x0 x8 = Cert.KernelIdeal.NodeProj.proj x0 x8 := by
  funext i
  obtain ⟨r, q, rfl⟩ : ∃ (r : Fin 50000) (q : Fin 128), i = ix2 r q := ⟨i 0, i 1, eq_ix2 i⟩
  rw [val_main_v28_apply]
  unfold Cert.KernelIdeal.NodeProj.proj
  simp only [val_main_v27_apply, e28l, e28r]

/-! ## The node update's stages -/

/-- The first dense layer at (r, k): the aggregated messages of node r against row k of the weights, plus the bias. -/
theorem dense3 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (r : Fin 50000) (k : Fin 128) :
    val_main_v44 (F := Ideal) x0 x1 x2 x3 x4 x5 x6 x7 x8 x9 x10 (ix2 r k)
      = ((∑ l : Fin 128, (val_main_v39 (F := Ideal) x0 x1 x2 x3 x4 x5 x6 x7 x8 (ix2 r l) : EReal) * (x9 (ix2 k l) : EReal)) + (x10 (ix1 k) : EReal) : EReal) := by
  rw [val_main_v44_apply, val_main_v41_apply, val_main_v43_apply, val_main_v42_apply]
  simp only [val_main_v40_apply, e41l, e41r, e43]
  rfl

/-- A float word splat over the node array reads, at any index, that word. -/
theorem splat_apply (b : BitVec 32) (i : S50000x128.Idx) :
    broadcastInDim S50000x128 ![] bcast_S_S50000x128 (constant (F := Ideal) S_ .f32 b) i = FloatOps.ofBits .f32 b := by
  generalize hy : constant (F := Ideal) S_ .f32 b = y
  rw [broadcastInDim_apply _ bcast_S_S50000x128 y i (fun a => a.elim0) (fun a => a.elim0), ← hy]
  rfl

/-- The host's softplus minus log 2 of a whole node array, as the reference spells it. -/
def sspHostVec (y : FVec Ideal S50000x128 .f32) : FVec Ideal S50000x128 .f32 :=
  subf
    (select
      (cmpf .une (subf y (broadcastInDim S50000x128 ![] bcast_S_S50000x128 (constant S_ .f32 0x00000000#32)))
        (subf y (broadcastInDim S50000x128 ![] bcast_S_S50000x128 (constant S_ .f32 0x00000000#32))))
      (addf y (broadcastInDim S50000x128 ![] bcast_S_S50000x128 (constant S_ .f32 0x00000000#32)))
      (addf (maximumf y (broadcastInDim S50000x128 ![] bcast_S_S50000x128 (constant S_ .f32 0x00000000#32)))
        (Host.log1p (Host.exp (Host.negf (Host.absf
          (subf y (broadcastInDim S50000x128 ![] bcast_S_S50000x128 (constant S_ .f32 0x00000000#32)))))))))
    (broadcastInDim S50000x128 ![] bcast_S_S50000x128 (constant S_ .f32 0x3F317218#32))

/-- Entry by entry it is the host's spelling of the shifted softplus. -/
theorem sspHostVec_apply (y : FVec Ideal S50000x128 .f32) (i : S50000x128.Idx) : sspHostVec y i = sspHost (y i) := by
  show FloatOps.subf
      (Scalar.select
        (FloatOps.cmpf .une (FloatOps.subf (y i) (broadcastInDim S50000x128 ![] bcast_S_S50000x128 (constant (F := Ideal) S_ .f32 0x00000000#32) i))
          (FloatOps.subf (y i) (broadcastInDim S50000x128 ![] bcast_S_S50000x128 (constant (F := Ideal) S_ .f32 0x00000000#32) i)))
        (FloatOps.addf (y i) (broadcastInDim S50000x128 ![] bcast_S_S50000x128 (constant (F := Ideal) S_ .f32 0x00000000#32) i))
        (FloatOps.addf (FloatOps.maximumf (y i) (broadcastInDim S50000x128 ![] bcast_S_S50000x128 (constant (F := Ideal) S_ .f32 0x00000000#32) i))
          (FloatOps.hostUnary .log1p (FloatOps.hostUnary .exp (FloatOps.hostNegf (FloatOps.hostAbsf
            (FloatOps.subf (y i) (broadcastInDim S50000x128 ![] bcast_S_S50000x128 (constant (F := Ideal) S_ .f32 0x00000000#32) i))))))))
      (broadcastInDim S50000x128 ![] bcast_S_S50000x128 (constant (F := Ideal) S_ .f32 0x3F317218#32) i) = _
  rw [splat_apply, splat_apply]
  rfl

/-- The reference's node-side softplus stage is that function of the stage before it (the stages' definitions, unfolded). -/
theorem softplus1_form (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) :
    val_main_v47 (F := Ideal) x0 x1 x2 x3 x4 x5 x6 x7 x8 x9 x10 = sspHostVec (val_main_v44 (F := Ideal) x0 x1 x2 x3 x4 x5 x6 x7 x8 x9 x10) := rfl

theorem softplus1 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (i : S50000x128.Idx) :
    val_main_v47 (F := Ideal) x0 x1 x2 x3 x4 x5 x6 x7 x8 x9 x10 i = sspHost (val_main_v44 (F := Ideal) x0 x1 x2 x3 x4 x5 x6 x7 x8 x9 x10 i) := by
  rw [softplus1_form]
  exact sspHostVec_apply _ i

/-- The second dense layer at (r, q). -/
theorem dense4 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (r : Fin 50000) (q : Fin 128) :
    val_main_v52 (F := Ideal) x0 x1 x2 x3 x4 x5 x6 x7 x8 x9 x10 x11 x12 (ix2 r q)
      = ((∑ k : Fin 128, (val_main_v47 (F := Ideal) x0 x1 x2 x3 x4 x5 x6 x7 x8 x9 x10 (ix2 r k) : EReal) * (x11 (ix2 q k) : EReal)) + (x12 (ix1 q) : EReal) : EReal) := by
  rw [val_main_v52_apply, val_main_v49_apply, val_main_v51_apply, val_main_v50_apply]
  simp only [val_main_v48_apply, e49l, e49r, e51]
  rfl

/-- The reference's result is the node update of its aggregated messages. -/
theorem mlp_ref (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v52 (F := Ideal) x0 x1 x2 x3 x4 x5 x6 x7 x8 x9 x10 x11 x12
      = Cert.KernelIdeal.NodeMlp.mlp (val_main_v39 (F := Ideal) x0 x1 x2 x3 x4 x5 x6 x7 x8) x9 x10 x11 x12 := by
  funext i
  obtain ⟨r, q, rfl⟩ : ∃ (r : Fin 50000) (q : Fin 128), i = ix2 r q := ⟨i 0, i 1, eq_ix2 i⟩
  rw [dense4]
  simp only [softplus1, dense3, sspHost_eq]
  generalize val_main_v39 (F := Ideal) x0 x1 x2 x3 x4 x5 x6 x7 x8 = A
  rfl

end Cert.ReferenceIdeal.RefValue

end
-- ==== Proof.ReferenceValue.lean ====
/-
  The reference program's result as the same function of the thirteen argument arrays as the kernel program's. Its
  slices of the edge index, its gather of the projected rows, its product with the filter and its scatter-add from
  zeros are the kernel program's host operations themselves, applied to arrays that the stage lemmas identify with the
  edge filter and the node projection; its final update is the node update of that sum.
-/
import proofs.«104091_j14370960572978_2_alg».proof.Proof.Gen.ReferenceIdeal.Read
import proofs.«104091_j14370960572978_2_alg».proof.Proof.ReferenceStages
import proofs.«104091_j14370960572978_2_alg».proof.Proof.KernelValue
import proofs.«104091_j14370960572978_2_alg».proof.Proof.Entrywise

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Entrywise
open scoped BigOperators

/-! ## The aggregation: the kernel program's own host operations -/

/-- The reference's gather, product and scatter-add of ANY projected rows H and filter rows Wt are the kernel program's
    aggregation of them: the same operations on the same two rows of the edge index (the kernel program's widening of
    the gathered rows is the identity on the extended reals). -/
theorem agg_form (x1 : (⟨S2x800000, .i32⟩ : BufTy).Contents (Elt Ideal)) (H : FVec Ideal S50000x128 .f32) (Wt : FVec Ideal S800000x128 .f32) :
    Host.scatterAdd scatter_S50000x128_S800000x1_S800000x128_1_0_0_1 (val_main_v37 (F := Ideal)) (val_main_v38 (F := Ideal) x1)
        (mulf (Host.gather gather_S50000x128_S800000x1_S800000x128_1_0_n_n_0_1_1128 H (val_main_v34 (F := Ideal) x1)) Wt)
      = Cert.KernelIdeal.Whole.aggregate (val_main_v1 (F := Ideal) x1) (val_main_v3 (F := Ideal) x1) H Wt := rfl

/-- The reference's aggregated messages: its stages' definitions, unfolded. -/
theorem agg_unfold (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    (val_main_v39 (F := Ideal) x0 x1 x2 x3 x4 x5 x6 x7 x8 : FVec Ideal S50000x128 .f32)
      = Host.scatterAdd (F := Ideal) (φ := .f32) scatter_S50000x128_S800000x1_S800000x128_1_0_0_1 (val_main_v37 (F := Ideal)) (val_main_v38 (F := Ideal) x1)
          (mulf (Host.gather gather_S50000x128_S800000x1_S800000x128_1_0_n_n_0_1_1128 (val_main_v28 (F := Ideal) x0 x8 : FVec Ideal S50000x128 .f32) (val_main_v34 (F := Ideal) x1))
            (val_main_v26 (F := Ideal) x2 x3 x4 x5 x6 x7 : FVec Ideal S800000x128 .f32)) := rfl

theorem agg_ref (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v39 (F := Ideal) x0 x1 x2 x3 x4 x5 x6 x7 x8
      = Cert.KernelIdeal.Whole.aggregate (val_main_v1 (F := Ideal) x1) (val_main_v3 (F := Ideal) x1) (val_main_v28 (F := Ideal) x0 x8)
          (val_main_v26 (F := Ideal) x2 x3 x4 x5 x6 x7) :=
  (agg_unfold x0 x1 x2 x3 x4 x5 x6 x7 x8).trans (agg_form x1 _ _)

/-! ## The whole -/

/-- The two rows of the edge index, as both programs slice them. -/
theorem whole_form (x1 : (⟨S2x800000, .i32⟩ : BufTy).Contents (Elt Ideal)) (H : FVec Ideal S50000x128 .f32) (Wt : FVec Ideal S800000x128 .f32)
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    Cert.KernelIdeal.NodeMlp.mlp (Cert.KernelIdeal.Whole.aggregate (val_main_v1 (F := Ideal) x1) (val_main_v3 (F := Ideal) x1) H Wt) x9 x10 x11 x12
      = Cert.KernelIdeal.NodeMlp.mlp (Cert.KernelIdeal.Whole.aggregate
          (shapeCast Cert.KernelIdeal.S800000 (extractStridedSlice Cert.KernelIdeal.S1x800000 ![0, 0] x1 Cert.KernelIdeal.Facts₀.slices_S2x800000_S1x800000_0_0) Cert.KernelIdeal.Facts₀.shapeCasts_S1x800000_S800000)
          (shapeCast Cert.KernelIdeal.S800000 (extractStridedSlice Cert.KernelIdeal.S1x800000 ![1, 0] x1 Cert.KernelIdeal.Facts₀.slices_S2x800000_S1x800000_1_0) Cert.KernelIdeal.Facts₀.shapeCasts_S1x800000_S800000)
          H Wt) x9 x10 x11 x12 := rfl

/-- The reference's result is the kernel program's whole function of the same arguments. -/
theorem ref_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S800000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v52 (F := Ideal) x0 x1 x2 x3 x4 x5 x6 x7 x8 x9 x10 x11 x12 = Cert.KernelIdeal.Whole.whole x0 x1 x2 x3 x4 x5 x6 x7 x8 x9 x10 x11 x12 := by
  rw [mlp_ref, agg_ref, filt_ref, proj_ref]
  exact whole_form x1 _ _ x9 x10 x11 x12

end Cert.ReferenceIdeal.RefValue

end
-- ==== Proof.lean ====
/-
  An interaction block of a continuous-filter graph network, as a kernel program against a plain array program.
  Per edge e with attributes a_e, weight w_e, source s_e and destination d_e, and per node n with features x_n:
    filter   W_e = (ssp(a_e · W1ᵀ + b1) · W2ᵀ + b2) · ½(cos(w_e · π/10) + 1)      (ssp v = softplus v − log 2)
    project  h_n = x_n · L1ᵀ
    gather, multiply, add    agg_n = Σ over edges with d_e = n of h_(s_e) ∘ W_e
    update   out_n = ssp(agg_n · L2ᵀ + c2) · Lᵀ + c
  The kernel program computes the filter, the projection and the update in three kernel launches (over 125, 10 and 10
  row blocks), with its matrix products on operands narrowed to a shorter float format and the projection stored
  narrow, and does the gather, the product and the scatter-add on the host between them; the reference computes
  everything on the host in one format. On the extended reals a change of float format is the identity, a matrix-unit
  product into zeros and the host's product are the same finite sums, the kernel's and the host's transcendentals are
  the same functions, and each side's guard against an undefined softplus argument never fires: so both programs end
  with the same function of the thirteen arguments, entry by entry, with the same float words on both sides and no
  rearrangement of any sum — no finiteness of the inputs is used.

  The three frame claims: the two kernel programs' are the generated frame certificates; the reference's is its
  generated run with the result dropped. The idealization rewrote no operation, so its claim is trivially true. The
  value claim: the kernel program's run ends with its result buffer at the last boundary's contents (KernelRun), which
  read back through the launches and host stretches are one function `whole` of the arguments (KernelValue, over
  EdgeFilter, NodeProjection and NodeMlp: each launch's result array as a whole-array function of what it found); the
  reference's generated run ends at a composed term that is the same `whole` of its arguments (ReferenceValue), and the
  two memories agree on the arguments.
-/
import proofs.«104091_j14370960572978_2_alg».proof.Defs
import proofs.«104091_j14370960572978_2_alg».proof.Proof.Gen.Kernel
import proofs.«104091_j14370960572978_2_alg».proof.Proof.Gen.Kernel.Skeleton
import proofs.«104091_j14370960572978_2_alg».proof.Proof.Gen.Kernel.Launch
import proofs.«104091_j14370960572978_2_alg».proof.Proof.Gen.Kernel.Points
import proofs.«104091_j14370960572978_2_alg».proof.Proof.Gen.Kernel.Frame
import proofs.«104091_j14370960572978_2_alg».proof.Proof.Gen.KernelIdeal
import proofs.«104091_j14370960572978_2_alg».proof.Proof.Gen.KernelIdeal.Skeleton
import proofs.«104091_j14370960572978_2_alg».proof.Proof.Gen.KernelIdeal.Launch
import proofs.«104091_j14370960572978_2_alg».proof.Proof.Gen.KernelIdeal.Points
import proofs.«104091_j14370960572978_2_alg».proof.Proof.Gen.KernelIdeal.Frame
import proofs.«104091_j14370960572978_2_alg».proof.Proof.Gen.ReferenceIdeal
import proofs.«104091_j14370960572978_2_alg».proof.Proof.Gen.ReferenceIdeal.Run
import proofs.«104091_j14370960572978_2_alg».proof.Proof.Gen.ReferenceIdeal.Read
import proofs.«104091_j14370960572978_2_alg».proof.Proof.Gen.Pre_finite_inputs
import proofs.«104091_j14370960572978_2_alg».proof.Proof.KernelRun
import proofs.«104091_j14370960572978_2_alg».proof.Proof.KernelValue
import proofs.«104091_j14370960572978_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with their result at the one function `whole`
    of the arguments. -/
theorem algebraic : Cert.algebraic_KernelIdeal_ReferenceIdeal := by
  intro m ρ m' ρ' _ hagree
  refine ⟨fun c => Cert.KernelIdeal.Whole.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result_eq m ρ c), (h c).2⟩) (Cert.KernelIdeal.Result.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v52_eq, h0, h1, h2, h3, h4, h5, h6, h7, h8, h9, h10, h11, h12]
    exact Cert.ReferenceIdeal.RefValue.ref_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
